-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200x1024 : Shape := ⟨2, ![3200, 1024]⟩
abbrev S32x1024 : Shape := ⟨2, ![32, 1024]⟩
abbrev S32 : Shape := ⟨1, ![32]⟩
abbrev S32x512x2 : Shape := ⟨3, ![32, 512, 2]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩

class Facts : Prop where
  bcast_S_S3200x1024 : S_.BroadcastsInDim S3200x1024 (![] : Fin 0 → Fin S3200x1024.rank)
  reducesTo_S3200x1024_S_d0_1 : S3200x1024.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg7 : FVec F S1024x1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg7
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S3200x1024 .f32) (main_arg1 : FVec F S32x1024 .f32) (main_arg2 : IVec S32 32) (main_arg3 : IVec S32 32) (main_arg4 : IVec S32x512x2 32) (main_arg5 : FVec F S2048x1024 .f32) (main_arg6 : FVec F S1024 .f32) (main_arg7 : FVec F S1024x1024 .f32) (main_arg8 : FVec F S1024 .f32) : IVec S_ 1 :=
  let main_v0 : FVec F S3200x1024 .f32 := Host.absf main_arg0
  let main_cst : FVec F S_ .f32 := constant S_ .f32 0x7F800000#32
  let main_v1 : FVec F S3200x1024 .f32 := broadcastInDim S3200x1024 ![] bcast_S_S3200x1024 main_cst
  let main_v2 : IVec S3200x1024 1 := cmpf .olt main_v0 main_v1
  let main_c : IVec S_ 1 := constantI S_ 1 1#1
  let main_v3 : IVec S_ 1 := (fun x v => Host.reduce IntOp.andi x v reducesTo_S3200x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S2048x1024 .f32 := Host.absf main_arg5
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_arg8 main_v13 main_v16
-- ==== Kernel.lean ====
abbrev S3200x1024 : Shape := ⟨2, ![3200, 1024]⟩
abbrev S32x1024 : Shape := ⟨2, ![32, 1024]⟩
abbrev S32 : Shape := ⟨1, ![32]⟩
abbrev S32x512x2 : Shape := ⟨3, ![32, 512, 2]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S32x1x1 : Shape := ⟨3, ![32, 1, 1]⟩
abbrev S32x512x2x1 : Shape := ⟨4, ![32, 512, 2, 1]⟩
abbrev S32x512x2x1024 : Shape := ⟨4, ![32, 512, 2, 1024]⟩
abbrev S32x512x1024 : Shape := ⟨3, ![32, 512, 1024]⟩
abbrev S32x1x1024 : Shape := ⟨3, ![32, 1, 1024]⟩
abbrev S32x512x2048 : Shape := ⟨3, ![32, 512, 2048]⟩
abbrev S16384x2048 : Shape := ⟨2, ![16384, 2048]⟩
abbrev S1x1024 : Shape := ⟨2, ![1, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 40
  | .vmem => 8
  | .smem => 0
  | _ => 0

abbrev bufTy : (tb : Table) → Fin (tcTables nBuf tb) → BufTy
  | .hbm, ⟨0, _⟩ => ⟨S3200x1024, .f32⟩
  | .hbm, ⟨1, _⟩ => ⟨S32x1024, .f32⟩
  | .hbm, ⟨2, _⟩ => ⟨S32, .i32⟩
  | .hbm, ⟨3, _⟩ => ⟨S32, .i32⟩
  | .hbm, ⟨4, _⟩ => ⟨S32x512x2, .i32⟩
  | .hbm, ⟨5, _⟩ => ⟨S2048x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32x1x1, .i32⟩
  | .hbm, ⟨14, _⟩ => ⟨S32x512x2, .i32⟩
  | .hbm, ⟨15, _⟩ => ⟨S32x512x2, .i32⟩
  | .hbm, ⟨16, _⟩ => ⟨S_, .i32⟩
  | .hbm, ⟨17, _⟩ => ⟨S32x512x2, .i32⟩
  | .hbm, ⟨18, _⟩ => ⟨S32x512x2, .i1⟩
  | .hbm, ⟨19, _⟩ => ⟨S_, .i32⟩
  | .hbm, ⟨20, _⟩ => ⟨S32x512x2, .i32⟩
  | .hbm, ⟨21, _⟩ => ⟨S32x512x2, .i32⟩
  | .hbm, ⟨22, _⟩ => ⟨S32x512x2, .i32⟩
  | .hbm, ⟨23, _⟩ => ⟨S32x512x2x1, .i32⟩
  | .hbm, ⟨24, _⟩ => ⟨S32x512x2x1024, .f32⟩
  | .hbm, ⟨25, _⟩ => ⟨S_, .f32⟩
  | .hbm, ⟨26, _⟩ => ⟨S32x512x1024, .f32⟩
  | .hbm, ⟨27, _⟩ => ⟨S_, .f32⟩
  | .hbm, ⟨28, _⟩ => ⟨S32x512x1024, .f32⟩
  | .hbm, ⟨29, _⟩ => ⟨S32x512x1024, .f32⟩
  | .hbm, ⟨30, _⟩ => ⟨S32x1x1024, .f32⟩
  | .hbm, ⟨31, _⟩ => ⟨S32x512x1024, .f32⟩
  | .hbm, ⟨32, _⟩ => ⟨S32x512x2048, .f32⟩
  | .hbm, ⟨33, _⟩ => ⟨S16384x2048, .f32⟩
  | .hbm, ⟨34, _⟩ => ⟨S16384x2048, .bf16⟩
  | .hbm, ⟨35, _⟩ => ⟨S2048x1024, .bf16⟩
  | .hbm, ⟨36, _⟩ => ⟨S1024x1024, .bf16⟩
  | .hbm, ⟨37, _⟩ => ⟨S1x1024, .f32⟩
  | .hbm, ⟨38, _⟩ => ⟨S1x1024, .f32⟩
  | .hbm, ⟨39, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S3200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S32_S32x1x1_0 : S32.BroadcastsInDim S32x1x1 (![0] : Fin 1 → Fin S32x1x1.rank)
  bcast_S32x1x1_S32x512x2_0_1_2 : S32x1x1.BroadcastsInDim S32x512x2 (![0, 1, 2] : Fin 3 → Fin S32x512x2.rank)
  bcast_S_S32x512x2 : S_.BroadcastsInDim S32x512x2 (![] : Fin 0 → Fin S32x512x2.rank)
  bcast_S32x512x2_S32x512x2x1_0_1_2 : S32x512x2.BroadcastsInDim S32x512x2x1 (![0, 1, 2] : Fin 3 → Fin S32x512x2x1.rank)
  reducesTo_S32x512x2x1024_S32x512x1024_d2 : S32x512x2x1024.ReducesTo [2] S32x512x1024
  bcast_S_S32x512x1024 : S_.BroadcastsInDim S32x512x1024 (![] : Fin 0 → Fin S32x512x1024.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  concatenates_S32x512x1024_S32x512x1024_S32x512x2048_d2 : Shape.Concatenates [S32x512x1024, S32x512x1024] S32x512x2048 2
  shapeCasts_S32x512x2048_S16384x2048 : S32x512x2048.ShapeCasts S16384x2048
  bitsLt_bf16_f32 : FTy.bits .bf16 < FTy.bits .f32
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  gather_S3200x1024_S32x512x2x1_S32x512x2x1024_3_0_n_n_0_3_11024_wf : GatherDims.WF S3200x1024 S32x512x2x1 S32x512x2x1024 [3] [0] [] [0] [] 3 ![1, 1024]
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def gather_S3200x1024_S32x512x2x1_S32x512x2x1024_3_0_n_n_0_3_11024 : GatherDims S3200x1024 S32x512x2x1 S32x512x2x1024 where
  offsetDims := [3]
  collapsedSliceDims := [0]
  operandBatchingDims := []
  startIndicesBatchingDims := []
  startIndexMap := [0]
  indexVectorDim := 3
  sliceSizes := ![1, 1024]
  wf := gather_S3200x1024_S32x512x2x1_S32x512x2x1024_3_0_n_n_0_3_11024_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v19) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3200x1024 : Shape := ⟨2, ![3200, 1024]⟩
abbrev S32x1024 : Shape := ⟨2, ![32, 1024]⟩
abbrev S32 : Shape := ⟨1, ![32]⟩
abbrev S32x512x2 : Shape := ⟨3, ![32, 512, 2]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S32x1x1 : Shape := ⟨3, ![32, 1, 1]⟩
abbrev S32x512x2x1 : Shape := ⟨4, ![32, 512, 2, 1]⟩
abbrev S32x512x2x1024 : Shape := ⟨4, ![32, 512, 2, 1024]⟩
abbrev S32x512x1024 : Shape := ⟨3, ![32, 512, 1024]⟩
abbrev S32x1x1024 : Shape := ⟨3, ![32, 1, 1024]⟩
abbrev S32x512x2048 : Shape := ⟨3, ![32, 512, 2048]⟩
abbrev S16384x2048 : Shape := ⟨2, ![16384, 2048]⟩
abbrev S16384x1024 : Shape := ⟨2, ![16384, 1024]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S3200x1024, .f32⟩
  | .hbm, ⟨1, _⟩ => ⟨S32x1024, .f32⟩
  | .hbm, ⟨2, _⟩ => ⟨S32, .i32⟩
  | .hbm, ⟨3, _⟩ => ⟨S32, .i32⟩
  | .hbm, ⟨4, _⟩ => ⟨S32x512x2, .i32⟩
  | .hbm, ⟨5, _⟩ => ⟨S2048x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32x1x1, .i32⟩
  | .hbm, ⟨14, _⟩ => ⟨S32x512x2, .i32⟩
  | .hbm, ⟨15, _⟩ => ⟨S32x512x2, .i32⟩
  | .hbm, ⟨16, _⟩ => ⟨S_, .i32⟩
  | .hbm, ⟨17, _⟩ => ⟨S32x512x2, .i32⟩
  | .hbm, ⟨18, _⟩ => ⟨S32x512x2, .i1⟩
  | .hbm, ⟨19, _⟩ => ⟨S_, .i32⟩
  | .hbm, ⟨20, _⟩ => ⟨S32x512x2, .i32⟩
  | .hbm, ⟨21, _⟩ => ⟨S32x512x2, .i32⟩
  | .hbm, ⟨22, _⟩ => ⟨S32x512x2, .i32⟩
  | .hbm, ⟨23, _⟩ => ⟨S32x512x2x1, .i32⟩
  | .hbm, ⟨24, _⟩ => ⟨S32x512x2x1024, .f32⟩
  | .hbm, ⟨25, _⟩ => ⟨S_, .f32⟩
  | .hbm, ⟨26, _⟩ => ⟨S32x512x1024, .f32⟩
  | .hbm, ⟨27, _⟩ => ⟨S_, .f32⟩
  | .hbm, ⟨28, _⟩ => ⟨S32x512x1024, .f32⟩
  | .hbm, ⟨29, _⟩ => ⟨S32x512x1024, .f32⟩
  | .hbm, ⟨30, _⟩ => ⟨S32x1x1024, .f32⟩
  | .hbm, ⟨31, _⟩ => ⟨S32x512x1024, .f32⟩
  | .hbm, ⟨32, _⟩ => ⟨S32x512x2048, .f32⟩
  | .hbm, ⟨33, _⟩ => ⟨S16384x2048, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | _, _ => ⟨S3200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S32_S32x1x1_0 : S32.BroadcastsInDim S32x1x1 (![0] : Fin 1 → Fin S32x1x1.rank)
  bcast_S32x1x1_S32x512x2_0_1_2 : S32x1x1.BroadcastsInDim S32x512x2 (![0, 1, 2] : Fin 3 → Fin S32x512x2.rank)
  bcast_S_S32x512x2 : S_.BroadcastsInDim S32x512x2 (![] : Fin 0 → Fin S32x512x2.rank)
  bcast_S32x512x2_S32x512x2x1_0_1_2 : S32x512x2.BroadcastsInDim S32x512x2x1 (![0, 1, 2] : Fin 3 → Fin S32x512x2x1.rank)
  reducesTo_S32x512x2x1024_S32x512x1024_d2 : S32x512x2x1024.ReducesTo [2] S32x512x1024
  bcast_S_S32x512x1024 : S_.BroadcastsInDim S32x512x1024 (![] : Fin 0 → Fin S32x512x1024.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  concatenates_S32x512x1024_S32x512x1024_S32x512x2048_d2 : Shape.Concatenates [S32x512x1024, S32x512x1024] S32x512x2048 2
  shapeCasts_S32x512x2048_S16384x2048 : S32x512x2048.ShapeCasts S16384x2048
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  gather_S3200x1024_S32x512x2x1_S32x512x2x1024_3_0_n_n_0_3_11024_wf : GatherDims.WF S3200x1024 S32x512x2x1 S32x512x2x1024 [3] [0] [] [0] [] 3 ![1, 1024]
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []

variable [Facts₀]

def gather_S3200x1024_S32x512x2x1_S32x512x2x1024_3_0_n_n_0_3_11024 : GatherDims S3200x1024 S32x512x2x1 S32x512x2x1024 where
  offsetDims := [3]
  collapsedSliceDims := [0]
  operandBatchingDims := []
  startIndicesBatchingDims := []
  startIndexMap := [0]
  indexVectorDim := 3
  sliceSizes := ![1, 1024]
  wf := gather_S3200x1024_S32x512x2x1_S32x512x2x1024_3_0_n_n_0_3_11024_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Mlp.lean ====
/-
  A two-layer perceptron with rectifiers, row by row, over the extended reals.

  One dense layer sends a row `h : Fin K → EReal` to `c ↦ max (∑ k, h k · w (k, c) + b c) 0`; the network is two
  such layers. It is a function of ONE row of the input matrix: row `r` of the output depends on row `r` of the
  input and on the weights only, which is why a kernel may compute it tile of rows by tile of rows.
-/
import Idealize.ShloMosaic.PureOps.Ideal
import Idealize.ShloMosaic.Lib.ValueIdx

noncomputable section

namespace Cert.PairMlp

open Idealize.ShloMosaic Idealize.ShloMosaic.ValueIdx

/-- A dense layer followed by the rectifier, applied to one row. -/
def dense {K N : Nat} (h : Fin K → EReal) (w : (⟨2, ![K, N]⟩ : Shape).Idx → EReal) (b : Fin N → EReal) (c : Fin N) : EReal :=
  max ((∑ k : Fin K, h k * w (ix2 k c)) + b c) 0

/-- The two layers applied to one row of pair features. -/
def mlpRow (x : Fin 2048 → EReal) (w1 : (⟨2, ![2048, 1024]⟩ : Shape).Idx → EReal) (b1 : Fin 1024 → EReal)
    (w2 : (⟨2, ![1024, 1024]⟩ : Shape).Idx → EReal) (b2 : Fin 1024 → EReal) (q : Fin 1024) : EReal :=
  dense (fun k => dense x w1 b1 k) w2 b2 q

/-- The network applied to every row of an `M × 2048` matrix. -/
def mlp {M : Nat} (x : (⟨2, ![M, 2048]⟩ : Shape).Idx → EReal) (w1 : (⟨2, ![2048, 1024]⟩ : Shape).Idx → EReal) (b1 : Fin 1024 → EReal)
    (w2 : (⟨2, ![1024, 1024]⟩ : Shape).Idx → EReal) (b2 : Fin 1024 → EReal) : (⟨2, ![M, 1024]⟩ : Shape).Idx → EReal :=
  fun i => mlpRow (fun j => x (ix2 (i 0) j)) w1 b1 w2 b2 (i 1)

theorem mlp_apply {M : Nat} (x : (⟨2, ![M, 2048]⟩ : Shape).Idx → EReal) (w1 : (⟨2, ![2048, 1024]⟩ : Shape).Idx → EReal) (b1 : Fin 1024 → EReal)
    (w2 : (⟨2, ![1024, 1024]⟩ : Shape).Idx → EReal) (b2 : Fin 1024 → EReal) (r : Fin M) (q : Fin 1024) :
    mlp x w1 b1 w2 b2 (ix2 r q) = mlpRow (fun j => x (ix2 r j)) w1 b1 w2 b2 q := rfl

end Cert.PairMlp

end
-- ==== Proof.Tile.lean ====
/-
  One tile of the kernel's body, entry by entry, over the extended reals.

  The body loads a tile of 512 rows of pair features, the two weight matrices and the two bias rows, and stores
  `relu (relu (x · W1 + b1) · W2 + b2)` for those rows. At the extended reals the change of format before each product
  is the identity and each product into a zero accumulator is the plain sum over the contracted index, so entry
  `(p, q)` of the stored tile is the two-layer network applied to row `p` of the loaded tile.
-/
import proofs.«120839_j87162066305839_1_alg».proof.Proof.Gen.KernelIdeal.Skeleton
import proofs.«120839_j87162066305839_1_alg».proof.Proof.LibPlainMatmul
import proofs.«120839_j87162066305839_1_alg».proof.Proof.Mlp
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.PairMlp

/-- The first layer of the tile at `(p, k)`: the product's sum plus the bias row, rectified. -/
theorem hidden_apply (x0 : FVec Ideal S512x2048 .bf16) (x1 : FVec Ideal S2048x1024 .bf16) (x2 : FVec Ideal S1x1024 .f32)
    (p : Fin 512) (k : Fin 1024) :
    maximumf (addf (matmul dot_S512x2048_S2048x1024_S512x1024_1_0_0_1_n_n none
        (shapeCast S512x2048 x0 shapeCasts_S512x2048_S512x2048) (shapeCast S2048x1024 x1 shapeCasts_S2048x1024_S2048x1024)
        (constant (F := Ideal) S512x1024 .f32 0x00000000#32))
      (broadcastTo S512x1024 (shapeCast S1x1024 x2 shapeCasts_S1x1024_S1x1024) broadcasts_S1x1024_S512x1024))
      (broadcast S512x1024 (Scalar.ofBits (F := Ideal) .f32 0x00000000#32)) (ix2 p k)
    = dense (fun j => x0 (ix2 p j)) x1 (fun c => x2 (ix2 (0 : Fin 1) c)) k := by
  rw [shapeCast_self, shapeCast_self, shapeCast_self]
  show max (FloatOps.matmul dot_S512x2048_S2048x1024_S512x1024_1_0_0_1_n_n none x0 x1
        (constant (F := Ideal) S512x1024 .f32 0x00000000#32) (ix2 p k)
      + broadcastTo S512x1024 x2 broadcasts_S1x1024_S512x1024 (ix2 p k)) (Ideal.ofBits .f32 0x00000000#32) = _
  rw [Cert.LibPlainMatmul.matmul_zero_apply dot_S512x2048_S2048x1024_S512x1024_1_0_0_1_n_n rfl rfl rfl rfl rfl rfl none x0 x1 p k,
    broadcastTo_1b_ab_apply x2 broadcasts_S1x1024_S512x1024 p k, Ideal.ofBits_zero_f32]
  rfl

/-- The second layer of the tile at `(p, q)`, from any first-layer tile `h`: the change of format is the identity, the
    product's sum plus the bias row, rectified. -/
theorem out_apply (h : FVec Ideal S512x1024 .f32) (x3 : FVec Ideal S1024x1024 .bf16) (x4 : FVec Ideal S1x1024 .f32)
    (p : Fin 512) (q : Fin 1024) :
    maximumf (addf (matmul dot_S512x1024_S1024x1024_S512x1024_1_0_0_1_n_n none
        (truncf .bf16 h bitsLt_bf16_f32) (shapeCast S1024x1024 x3 shapeCasts_S1024x1024_S1024x1024)
        (constant (F := Ideal) S512x1024 .f32 0x00000000#32))
      (broadcastTo S512x1024 (shapeCast S1x1024 x4 shapeCasts_S1x1024_S1x1024) broadcasts_S1x1024_S512x1024))
      (broadcast S512x1024 (Scalar.ofBits (F := Ideal) .f32 0x00000000#32)) (ix2 p q)
    = dense (fun k => h (ix2 p k)) x3 (fun c => x4 (ix2 (0 : Fin 1) c)) q := by
  rw [shapeCast_self, shapeCast_self]
  show max (FloatOps.matmul dot_S512x1024_S1024x1024_S512x1024_1_0_0_1_n_n none (truncf .bf16 h bitsLt_bf16_f32) x3
        (constant (F := Ideal) S512x1024 .f32 0x00000000#32) (ix2 p q)
      + broadcastTo S512x1024 x4 broadcasts_S1x1024_S512x1024 (ix2 p q)) (Ideal.ofBits .f32 0x00000000#32) = _
  rw [Cert.LibPlainMatmul.matmul_zero_apply dot_S512x1024_S1024x1024_S512x1024_1_0_0_1_n_n rfl rfl rfl rfl rfl rfl none
      (truncf .bf16 h bitsLt_bf16_f32) x3 p q,
    broadcastTo_1b_ab_apply x4 broadcasts_S1x1024_S512x1024 p q, Ideal.ofBits_zero_f32]
  rfl

/-- The stored tile at `(p, q)` is the network applied to row `p` of the loaded tile of pair features. -/
theorem tile_apply (x0 : FVec Ideal S512x2048 .bf16) (x1 : FVec Ideal S2048x1024 .bf16) (x2 : FVec Ideal S1x1024 .f32)
    (x3 : FVec Ideal S1024x1024 .bf16) (x4 : FVec Ideal S1x1024 .f32) (p : Fin 512) (q : Fin 1024) :
    k0_pay1 (F := Ideal) x0 x1 x2 x3 x4 (ix2 p q)
      = mlpRow (fun j => x0 (ix2 p j)) x1 (fun c => x2 (ix2 (0 : Fin 1) c)) x3 (fun c => x4 (ix2 (0 : Fin 1) c)) q := by
  unfold k0_pay1
  refine (out_apply _ x3 x4 p q).trans ?_
  unfold mlpRow
  exact congrArg (fun h => dense h x3 (fun c => x4 (ix2 (0 : Fin 1) c)) q) (funext fun k => hidden_apply x0 x1 x2 p k)

end Cert.KernelIdeal.Tile

end
-- ==== Proof.Rows.lean ====
/-
  From the kernel's tiles to its whole output array.

  The grid has 32 points; point `t` reads rows `512·t … 512·t + 511` of the pair features and the whole of the two
  weight matrices and bias rows, and writes back rows `512·t … 512·t + 511` of the output. The network is a function
  of one row, so the tile written at `t` is the block at `t` of ONE array: the network applied to every row of the
  pair features. The 32 blocks cover the 16384 rows, so that array is what the output holds after the run.
-/
import proofs.«120839_j87162066305839_1_alg».proof.Proof.Gen.KernelIdeal.Value
import proofs.«120839_j87162066305839_1_alg».proof.Proof.Tile

noncomputable section

namespace Cert.KernelIdeal.Rows

open Cert.KernelIdeal Cert.KernelIdeal.Gen Idealize.ShloMosaic Idealize.ShloMosaic.TcCoe Idealize.SL.Sem
open Idealize.ShloMosaic.ValueIdx Cert.PairMlp
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The network applied to every row of the pair features the region finds, with the weights and bias rows it finds. -/
def whole (c : Dev nD) : S16384x1024.Idx → EReal :=
  mlp (M := 16384) (V m c main_v19) (V m c main_v20) (fun k => V m c main_v22 (ix2 (0 : Fin 1) k)) (V m c main_v21)
    (fun k => V m c main_v23 (ix2 (0 : Fin 1) k))

/-- The block indices over the grid: the pair features' and the output's row block is the point's number, every other
    block index is zero. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The tile of pair features at point `t`, at `(p, j)`: the array's row `512·t + p`, which is the row of the output
    block's entry `(p, q)`. -/
theorem feats_block (c : Dev nD) (t : Fin cfg0.N) (p : Fin 512) (q : Fin 1024) (j : Fin 2048) :
    iblk m c 0 t (ix2 p j)
      = (V m c main_v19 : S16384x2048.Idx → EReal) (ix2 ((((cfg0.win 5).blk t).view.emb (ix2 p q)) 0) j) := by
  obtain ⟨e0, e1, -⟩ := index_facts t
  show V m c main_v19 (((cfg0.win 0).blk t).view.emb (ix2 p j)) = _
  refine congrArg (V m c main_v19) (funext fun a => Fin.ext ?_)
  match a with
  | ⟨0, _⟩ =>
    show win0_0.index t (0 : Fin 2) * 512 + 1 * p.val = win0_5.index t (0 : Fin 2) * 512 + 1 * p.val
    omega
  | ⟨1, _⟩ =>
    show win0_0.index t (1 : Fin 2) * 2048 + 1 * j.val = j.val
    omega

/-- The first weight matrix's one block is the whole matrix. -/
theorem w1_block (c : Dev nD) (t : Fin cfg0.N) : iblk m c 1 t = (V m c main_v20 : S2048x1024.Idx → EReal) := by
  obtain ⟨-, -, e0, e1, -⟩ := index_facts t
  funext y
  show V m c main_v20 (((cfg0.win 1).blk t).view.emb y) = _
  refine congrArg (V m c main_v20) (funext fun a => Fin.ext ?_)
  match a with
  | ⟨0, _⟩ => show win0_1.index t (0 : Fin 2) * 2048 + 1 * (y 0).val = (y 0).val; omega
  | ⟨1, _⟩ => show win0_1.index t (1 : Fin 2) * 1024 + 1 * (y 1).val = (y 1).val; omega

/-- The first bias row's one block is the whole row. -/
theorem b1_block (c : Dev nD) (t : Fin cfg0.N) : iblk m c 2 t = (V m c main_v22 : S1x1024.Idx → EReal) := by
  obtain ⟨-, -, -, -, e0, e1, -⟩ := index_facts t
  funext y
  show V m c main_v22 (((cfg0.win 2).blk t).view.emb y) = _
  refine congrArg (V m c main_v22) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The second weight matrix's one block is the whole matrix. -/
theorem w2_block (c : Dev nD) (t : Fin cfg0.N) : iblk m c 3 t = (V m c main_v21 : S1024x1024.Idx → EReal) := by
  obtain ⟨-, -, -, -, -, -, e0, e1, -⟩ := index_facts t
  funext y
  show V m c main_v21 (((cfg0.win 3).blk t).view.emb y) = _
  refine congrArg (V m c main_v21) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The second bias row's one block is the whole row. -/
theorem b2_block (c : Dev nD) (t : Fin cfg0.N) : iblk m c 4 t = (V m c main_v23 : S1x1024.Idx → EReal) := by
  obtain ⟨-, -, -, -, -, -, -, -, e0, e1, -⟩ := index_facts t
  funext y
  show V m c main_v23 (((cfg0.win 4).blk t).view.emb y) = _
  refine congrArg (V m c main_v23) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The output block's entry `(p, q)` sits in column `q` of the array. -/
theorem out_col (t : Fin cfg0.N) (p : Fin 512) (q : Fin 1024) :
    ((((cfg0.win 5).blk t).view.emb (ix2 p q)) 1 : Fin 1024) = q := by
  obtain ⟨-, -, -, -, -, -, -, -, -, -, -, e1⟩ := index_facts t
  refine Fin.ext ?_
  show win0_5.index t (1 : Fin 2) * 1024 + 1 * q.val = q.val
  omega

/-- What point `t` writes back is the block at `t` of the network applied to every row. -/
theorem flushed_eq (c : Dev nD) (t : Fin cfg0.N) :
    (dats m 0 c).flushed 5 t = ((cfg0.win 5).blk t).view.read (Elt Ideal) (whole m c) := by
  rw [Value.flushed5]
  unfold out0_5
  rw [View.canon_unit_zero offsets_zero]
  simp only [View.ld_unit_zero (S := S512x2048) offsets_zero, View.ld_unit_zero (S := S2048x1024) offsets_zero,
    View.ld_unit_zero (S := S1x1024) offsets_zero, View.ld_unit_zero (S := S1024x1024) offsets_zero]
  funext y
  obtain ⟨p, q, rfl⟩ : ∃ (p : Fin 512) (q : Fin 1024), y = ix2 p q := ⟨y 0, y 1, eq_ix2 y⟩
  show k0_pay1 (iblk m c 0 t) (iblk m c 1 t) (iblk m c 2 t) (iblk m c 3 t) (iblk m c 4 t) (ix2 p q)
    = whole m c (((cfg0.win 5).blk t).view.emb (ix2 p q))
  refine (Tile.tile_apply (iblk m c 0 t) (iblk m c 1 t) (iblk m c 2 t) (iblk m c 3 t) (iblk m c 4 t) p q).trans ?_
  rw [w1_block, b1_block, w2_block, b2_block]
  unfold whole mlp
  rw [out_col]
  exact congrArg (fun x => mlpRow x (V m c main_v20) (fun k => V m c main_v22 (ix2 (0 : Fin 1) k)) (V m c main_v21)
    (fun k => V m c main_v23 (ix2 (0 : Fin 1) k)) q) (funext fun j => feats_block m c t p q j)

/-- An index of the output array is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v24).slice (win0_5.rect t)).set ↔ _
  rw [View.set_slice_whole, Rect.mem_set_unit]
  exact Iff.rfl

/-- Every block of 512 rows is some point's. -/
theorem index_onto : ∀ b : Fin 32, ∃ t : Fin cfg0.N, win0_5.index t = ![b.val, 0] :=
  (by decide +kernel : ∀ b : Fin 32, ∃ t : Fin grid0.N, win0_5.index t = ![b.val, 0])

/-- The 32 blocks cover the array: row `r` is in the block of point `r / 512`. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := index_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- After the run the output array is the network applied to every row of the pair features the region finds. -/
theorem final (c : Dev nD) : (dats m 0 c).arrAt 5 cfg0.N = whole m c :=
  (dats m 0 c).arrAt_eq_of_cover 5 (whole m c) (fun t _ => flushed_eq m c t) cover

end Cert.KernelIdeal.Rows

end
-- ==== Proof.PairFeatures.lean ====
/-
  The pair features, as one function of the inputs.

  Image `b` owns the objects `off b … off b + n b − 1` of the feature table, where `n` are the per-image counts and
  `off` their exclusive running sum. Pair `(b, r)` names two objects of image `b` by local index; its feature row is
  the mean of the two objects' rows (a negative global index wraps by the table's 3200 rows, as indexing does)
  followed by image `b`'s context vector: 1024 + 1024 = 2048 entries, for 32 · 512 = 16384 pairs.

  Both programs compute this array with the same operations; everything after it is stated over it as one value.
-/
import proofs.«120839_j87162066305839_1_alg».proof.Proof.Gen.KernelIdeal
import Idealize.ShloMosaic.PureOps.Ideal

noncomputable section

namespace Cert.PairFeatures

open Cert.KernelIdeal Cert.KernelIdeal.Gen Idealize.ShloMosaic

/-- The global object index of every pair endpoint: the local index plus the image's offset, wrapped if negative. -/
def endpoints (a2 : IVec S32 32) (a4 : IVec S32x512x2 32) : IVec S32x512x2 32 :=
  let g : IVec S32x512x2 32 := addi a4 (broadcastInDim S32x512x2 ![0, 1, 2] bcast_S32x1x1_S32x512x2_0_1_2
    (broadcastInDim S32x1x1 ![0] bcast_S32_S32x1x1_0
      (subi (Host.reduceWindow IntOp.addi ![32] ![1] ![31] ![0] a2 (broadcastInDim S_ ![] bcast_S_S_ (constantI S_ 32 0#32))
        reduceWindows_S32_S32_w32s1p31_0 h_S_) a2)))
  select (cmpi .slt g (broadcastInDim S32x512x2 ![] bcast_S_S32x512x2 (constantI S_ 32 0#32)))
    (addi g (broadcastInDim S32x512x2 ![] bcast_S_S32x512x2 (constantI S_ 32 3200#32))) g

/-- The mean of the two gathered object rows of every pair. -/
def pairMean (a0 : FVec Ideal S3200x1024 .f32) (a2 : IVec S32 32) (a4 : IVec S32x512x2 32) : FVec Ideal S32x512x1024 .f32 :=
  Host.divf (F := Ideal)
    (Host.reduceAdd (F := Ideal)
      (Host.gather gather_S3200x1024_S32x512x2x1_S32x512x2x1024_3_0_n_n_0_3_11024 a0
        (broadcastInDim S32x512x2x1 ![0, 1, 2] bcast_S32x512x2_S32x512x2x1_0_1_2 (endpoints a2 a4)))
      (constant (F := Ideal) S_ .f32 0x00000000#32) reducesTo_S32x512x2x1024_S32x512x1024_d2 h_S_)
    (broadcastInDim S32x512x1024 ![] bcast_S_S32x512x1024 (constant (F := Ideal) S_ .f32 0x40000000#32))

/-- Every pair's image context vector. -/
def pairContext (a1 : FVec Ideal S32x1024 .f32) : FVec Ideal S32x512x1024 .f32 :=
  broadcastInDim S32x512x1024 ![0, 1, 2] bcast_S32x1x1024_S32x512x1024_0_1_2
    (broadcastInDim S32x1x1024 ![0, 2] bcast_S32x1024_S32x1x1024_0_2 a1)

/-- The pair features from the two halves: side by side, then the pairs of all images in one list. -/
def assemble (u v : FVec Ideal S32x512x1024 .f32) : FVec Ideal S16384x2048 .f32 :=
  shapeCast S16384x2048
    (concatenate S32x512x2048 2 [⟨S32x512x1024, u⟩, ⟨S32x512x1024, v⟩] concatenates_S32x512x1024_S32x512x1024_S32x512x2048_d2)
    shapeCasts_S32x512x2048_S16384x2048

/-- The pair features. -/
def feats (a0 : FVec Ideal S3200x1024 .f32) (a1 : FVec Ideal S32x1024 .f32) (a2 : IVec S32 32) (a4 : IVec S32x512x2 32) :
    FVec Ideal S16384x2048 .f32 :=
  assemble (pairMean a0 a2 a4) (pairContext a1)

end Cert.PairFeatures

end
-- ==== Proof.LibAfterAppend.lean ====
/-
  Folding a list of host operations over a valuation, one stretch after another.

  `StableHlo.after ops W` folds each operation's result into the valuation `W` in order; folding a concatenation
  is folding the first stretch and then the second over what it leaves. This lets a long program be read in
  stretches, each against an arbitrary starting valuation.
-/
import Idealize.ShloMosaic.Lib.StableHlo.Run

namespace Cert.LibAfterAppend

open Idealize.ShloMosaic Idealize.ShloMosaic.StableHlo

/-- Folding two stretches of operations one after the other is folding their concatenation. -/
theorem after_concat {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A list cut at `k`: folding it is folding the first `k` operations, then the rest. -/
theorem after_take_drop {τ : Topo} {sig : RefSig} {Val : EltTy → Type} (k : Nat) (l : List (HloOp τ sig Val)) (W : Valuation τ sig Val) :
    after l W = after (l.drop k) (after (l.take k) W) := by
  rw [← after_concat, List.take_append_drop]

end Cert.LibAfterAppend
-- ==== Proof.Entry.lean ====
/-
  What the kernel's region finds in its five input arrays, as functions of the program's arguments.

  Before the region the program computes the pair features (then changes their format, which is the identity over the
  extended reals), changes the format of the two weight matrices, and lays each bias vector out as a one-row matrix.
  The operations are read in two stretches: up to the two halves of the pair features (the mean of the gathered rows,
  and the context vectors), and from their concatenation on.
-/
import proofs.«120839_j87162066305839_1_alg».proof.Proof.Gen.KernelIdeal.Frame
import proofs.«120839_j87162066305839_1_alg».proof.Proof.PairFeatures
import proofs.«120839_j87162066305839_1_alg».proof.Proof.LibAfterAppend
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Cert.PairFeatures Cert.LibAfterAppend

/-- The operations up to the two halves of the pair features, -/
abbrev early : List (HloOp τ sig (Elt Ideal)) := hostOps0 ++ hostOps0_1.take 20
/-- and the ones from their concatenation on. -/
abbrev late : List (HloOp τ sig (Elt Ideal)) := hostOps0_1.drop 20

variable (m : (ℓ : Loc nD τ sig) → Buf (Elt Ideal) ℓ)

/-- The contents the region finds are the launch contents folded through the two stretches. -/
theorem found_split (c : Dev nD) (b : Ref sig .tc) : V m c b = after late (after early (fun b => m (c, b))) b := by
  show after (List.flatten [hostOps0, hostOps0_1]) (fun b => m (c, b)) b = _
  rw [← after_concat]
  refine congrArg (fun l => after l (fun b => m (c, b)) (b : DevRef τ sig)) ?_
  simp only [early, late, List.flatten_cons, List.flatten_nil, List.append_nil, List.append_assoc, List.take_append_drop]

/-! ## The first stretch -/

-- the calls' typed references carry casts along proofs of `T = T`; the heavy operations stay folded while those are compared away
attribute [local irreducible] Host.reduceWindow Host.gather Host.reduceAdd Host.divf concatenate shapeCast broadcastInDim in
theorem early_mean (W : Valuation τ sig (Elt Ideal)) :
    after early W (main_v14 : DevRef τ sig)
      = pairMean (W (main_arg0 : DevRef τ sig)) (W (main_arg2 : DevRef τ sig)) (W (main_arg4 : DevRef τ sig)) := by
  simp only [early, hostOps0, hostOps0_1, List.take_succ_cons, List.take_zero, List.cons_append, List.nil_append]
  after_results_simp
  rfl

theorem early_context (W : Valuation τ sig (Elt Ideal)) :
    after early W (main_v16 : DevRef τ sig) = pairContext (W (main_arg1 : DevRef τ sig)) := by
  simp only [early, hostOps0, hostOps0_1, List.take_succ_cons, List.take_zero, List.cons_append, List.nil_append]
  after_results_simp
  rfl

theorem early_arg5 (W : Valuation τ sig (Elt Ideal)) : after early W (main_arg5 : DevRef τ sig) = W (main_arg5 : DevRef τ sig) := by
  simp only [early, hostOps0, hostOps0_1, List.take_succ_cons, List.take_zero, List.cons_append, List.nil_append]
  after_results_simp

theorem early_arg6 (W : Valuation τ sig (Elt Ideal)) : after early W (main_arg6 : DevRef τ sig) = W (main_arg6 : DevRef τ sig) := by
  simp only [early, hostOps0, hostOps0_1, List.take_succ_cons, List.take_zero, List.cons_append, List.nil_append]
  after_results_simp

theorem early_arg7 (W : Valuation τ sig (Elt Ideal)) : after early W (main_arg7 : DevRef τ sig) = W (main_arg7 : DevRef τ sig) := by
  simp only [early, hostOps0, hostOps0_1, List.take_succ_cons, List.take_zero, List.cons_append, List.nil_append]
  after_results_simp

theorem early_arg8 (W : Valuation τ sig (Elt Ideal)) : after early W (main_arg8 : DevRef τ sig) = W (main_arg8 : DevRef τ sig) := by
  simp only [early, hostOps0, hostOps0_1, List.take_succ_cons, List.take_zero, List.cons_append, List.nil_append]
  after_results_simp

/-! ## The second stretch -/

theorem late_feats (W : Valuation τ sig (Elt Ideal)) :
    after late W (main_v19 : DevRef τ sig)
      = truncf .bf16 (assemble (W (main_v14 : DevRef τ sig)) (W (main_v16 : DevRef τ sig))) bitsLt_bf16_f32 := by
  simp only [late, hostOps0_1, List.drop_succ_cons, List.drop_zero]
  after_results_simp
  rfl

theorem late_w1 (W : Valuation τ sig (Elt Ideal)) :
    after late W (main_v20 : DevRef τ sig)
      = (truncf .bf16 (W (main_arg5 : DevRef τ sig) : FVec Ideal S2048x1024 .f32) bitsLt_bf16_f32 : FVec Ideal S2048x1024 .bf16) := by
  simp only [late, hostOps0_1, List.drop_succ_cons, List.drop_zero]
  after_results_simp

theorem late_w2 (W : Valuation τ sig (Elt Ideal)) :
    after late W (main_v21 : DevRef τ sig)
      = (truncf .bf16 (W (main_arg7 : DevRef τ sig) : FVec Ideal S1024x1024 .f32) bitsLt_bf16_f32 : FVec Ideal S1024x1024 .bf16) := by
  simp only [late, hostOps0_1, List.drop_succ_cons, List.drop_zero]
  after_results_simp

theorem late_b1 (W : Valuation τ sig (Elt Ideal)) :
    after late W (main_v22 : DevRef τ sig) = shapeCast S1x1024 (W (main_arg6 : DevRef τ sig)) shapeCasts_S1024_S1x1024 := by
  simp only [late, hostOps0_1, List.drop_succ_cons, List.drop_zero]
  after_results_simp
  rfl

theorem late_b2 (W : Valuation τ sig (Elt Ideal)) :
    after late W (main_v23 : DevRef τ sig) = shapeCast S1x1024 (W (main_arg8 : DevRef τ sig)) shapeCasts_S1024_S1x1024 := by
  simp only [late, hostOps0_1, List.drop_succ_cons, List.drop_zero]
  after_results_simp
  rfl

/-! ## What the region finds -/

/-- The pair-feature window's array: the pair features of the arguments. -/
theorem found_feats (c : Dev nD) :
    (V m c main_v19 : S16384x2048.Idx → EReal)
      = feats (m ((c : Thread nD τ).loc main_arg0)) (m ((c : Thread nD τ).loc main_arg1)) (m ((c : Thread nD τ).loc main_arg2))
          (m ((c : Thread nD τ).loc main_arg4)) := by
  rw [found_split, late_feats, early_mean, early_context]
  rfl

/-- The first weight window's array: the first weight matrix. -/
theorem found_w1 (c : Dev nD) : (V m c main_v20 : S2048x1024.Idx → EReal) = m ((c : Thread nD τ).loc main_arg5) := by
  rw [found_split, late_w1, early_arg5]
  rfl

/-- The second weight window's array: the second weight matrix. -/
theorem found_w2 (c : Dev nD) : (V m c main_v21 : S1024x1024.Idx → EReal) = m ((c : Thread nD τ).loc main_arg7) := by
  rw [found_split, late_w2, early_arg7]
  rfl

/-- The first bias window's array: the first bias vector as a row. -/
theorem found_b1 (c : Dev nD) :
    (V m c main_v22 : S1x1024.Idx → EReal) = shapeCast S1x1024 (m ((c : Thread nD τ).loc main_arg6)) shapeCasts_S1024_S1x1024 := by
  rw [found_split, late_b1, early_arg6]

/-- The second bias window's array: the second bias vector as a row. -/
theorem found_b2 (c : Dev nD) :
    (V m c main_v23 : S1x1024.Idx → EReal) = shapeCast S1x1024 (m ((c : Thread nD τ).loc main_arg8)) shapeCasts_S1024_S1x1024 := by
  rw [found_split, late_b2, early_arg8]

end Cert.KernelIdeal.Entry

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.KernelValue.lean ====
/-
  What the kernel's program computes, as one function of its arguments.

  The output array ends as the two-layer network applied to every row of what the region finds in the pair-feature
  window; that array is the pair features of the arguments, the weight windows hold the weight matrices, and each bias
  window holds its bias vector as a row. So the result is the network applied to every row of the pair features of the
  arguments.
-/
import proofs.«120839_j87162066305839_1_alg».proof.Proof.Rows
import proofs.«120839_j87162066305839_1_alg».proof.Proof.Entry
import proofs.«120839_j87162066305839_1_alg».proof.Proof.LibRowBroadcast

noncomputable section

namespace Cert.KernelIdeal.Result

open Cert.KernelIdeal Cert.KernelIdeal.Gen Idealize.ShloMosaic Idealize.ShloMosaic.TcCoe Idealize.SL.Sem
open Idealize.ShloMosaic.ValueIdx Cert.PairMlp Cert.PairFeatures

variable (m : (ℓ : Loc nD τ sig) → Buf (Elt Ideal) ℓ) (ρ : Dev nD → PrngReg)

/-- The network applied to every row of the pair features of the arguments. -/
def value (c : Dev nD) : S16384x1024.Idx → EReal :=
  mlp (M := 16384)
    (feats (m ((c : Thread nD τ).loc main_arg0)) (m ((c : Thread nD τ).loc main_arg1)) (m ((c : Thread nD τ).loc main_arg2))
      (m ((c : Thread nD τ).loc main_arg4)))
    (m ((c : Thread nD τ).loc main_arg5)) (fun k => (m ((c : Thread nD τ).loc main_arg6) : S1024.Idx → EReal) (ix1 k))
    (m ((c : Thread nD τ).loc main_arg7)) (fun k => (m ((c : Thread nD τ).loc main_arg8) : S1024.Idx → EReal) (ix1 k))

/-- What the region's arrays hold makes the output that function of the arguments. -/
theorem whole_eq (c : Dev nD) : Rows.whole m c = value m c := by
  unfold Rows.whole value
  rw [Entry.found_feats, Entry.found_w1, Entry.found_w2, Entry.found_b1, Entry.found_b2]
  simp only [Cert.LibRowBroadcast.row_cast]

/-- The run of the kernel's program: the output array at that function of the arguments, the arguments unchanged. -/
theorem run : θ_run defs (onTc (τ := τ) (main (F := Ideal))) ⟨m, fun _ => 0, ρ⟩ fun r => ∀ c : Dev nD,
      r.2.mem ((c : Thread nD τ).loc main_v24) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((Rows.final m c).trans (whole_eq m c)), (h c).2⟩)
    (Cert.KernelIdeal.Value.run_blocks m ρ)

end Cert.KernelIdeal.Result

end
-- ==== Proof.RefLine.lean ====
/-
  The reference program as one straight line of host operations, and its run.

  The reference computes, from the object features `a0 : [3200, 1024]`, the per-image context vectors
  `a1 : [32, 1024]`, the per-image object counts `a2 : [32]` and the object pairs `a4 : [32, 512, 2]`,
  the pair features `x : [16384, 2048]` (the mean of the two gathered object rows, then the image's context
  vector), and from them `relu (relu (x · W1 + b1) · W2 + b2)`. Its text calls three outlined functions —
  the running sum of the counts (two levels deep) and the two rectifiers; unfolded at their call sites the
  program is a list of thirty-seven operations, and every weakly fair execution of it ends with each buffer
  at the fold of those operations over the launch contents.
-/
import proofs.«120839_j87162066305839_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the three calls unfolded: the running sum is three operations into the
    inner call's buffers, each rectifier three into its own. -/
abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg2) main_call0.call0.v0 main_call0.call0.v1 (fun x v => Host.reduceWindow IntOp.addi ![32] ![1] ![31] ![0] x v reduceWindows_S32_S32_w32s1p31_0 h_S_),
    binary main_v0 main_arg2 main_v1 (subi : (⟨S32, .i32⟩ : BufTy).Contents (Elt F) → (⟨S32, .i32⟩ : BufTy).Contents (Elt F) → (⟨S32, .i32⟩ : BufTy).Contents (Elt F)),
    unary main_v1 main_v2 (broadcastInDim S32x1x1 ![0] bcast_S32_S32x1x1_0 : (⟨S32, .i32⟩ : BufTy).Contents (Elt F) → (⟨S32x1x1, .i32⟩ : BufTy).Contents (Elt F)),
    unary main_v2 main_v3 (broadcastInDim S32x512x2 ![0, 1, 2] bcast_S32x1x1_S32x512x2_0_1_2 : (⟨S32x1x1, .i32⟩ : BufTy).Contents (Elt F) → (⟨S32x512x2, .i32⟩ : BufTy).Contents (Elt F)),
    binary main_arg4 main_v3 main_v4 (addi : (⟨S32x512x2, .i32⟩ : BufTy).Contents (Elt F) → (⟨S32x512x2, .i32⟩ : BufTy).Contents (Elt F) → (⟨S32x512x2, .i32⟩ : BufTy).Contents (Elt F)),
    nullary main_c (constantI S_ 32 0#32),
    unary main_c main_v5 (broadcastInDim S32x512x2 ![] bcast_S_S32x512x2 : (⟨S_, .i32⟩ : BufTy).Contents (Elt F) → (⟨S32x512x2, .i32⟩ : BufTy).Contents (Elt F)),
    binary main_v4 main_v5 main_v6 (cmpi .slt : (⟨S32x512x2, .i32⟩ : BufTy).Contents (Elt F) → (⟨S32x512x2, .i32⟩ : BufTy).Contents (Elt F) → (⟨S32x512x2, .i1⟩ : BufTy).Contents (Elt F)),
    nullary main_c_0 (constantI S_ 32 3200#32),
    unary main_c_0 main_v7 (broadcastInDim S32x512x2 ![] bcast_S_S32x512x2 : (⟨S_, .i32⟩ : BufTy).Contents (Elt F) → (⟨S32x512x2, .i32⟩ : BufTy).Contents (Elt F)),
    binary main_v4 main_v7 main_v8 (addi : (⟨S32x512x2, .i32⟩ : BufTy).Contents (Elt F) → (⟨S32x512x2, .i32⟩ : BufTy).Contents (Elt F) → (⟨S32x512x2, .i32⟩ : BufTy).Contents (Elt F)),
    ternary main_v6 main_v8 main_v4 main_v9 (select : (⟨S32x512x2, .i1⟩ : BufTy).Contents (Elt F) → (⟨S32x512x2, .i32⟩ : BufTy).Contents (Elt F) → (⟨S32x512x2, .i32⟩ : BufTy).Contents (Elt F) → (⟨S32x512x2, .i32⟩ : BufTy).Contents (Elt F)),
    unary main_v9 main_v10 (broadcastInDim S32x512x2x1 ![0, 1, 2] bcast_S32x512x2_S32x512x2x1_0_1_2 : (⟨S32x512x2, .i32⟩ : BufTy).Contents (Elt F) → (⟨S32x512x2x1, .i32⟩ : BufTy).Contents (Elt F)),
    binary main_arg0 main_v10 main_v11 ((fun x i => Host.gather gather_S3200x1024_S32x512x2x1_S32x512x2x1024_3_0_n_n_0_3_11024 x i) : (⟨S3200x1024, .f32⟩ : BufTy).Contents (Elt F) → (⟨S32x512x2x1, .i32⟩ : BufTy).Contents (Elt F) → (⟨S32x512x2x1024, .f32⟩ : BufTy).Contents (Elt F)),
    nullary main_cst (constant S_ .f32 0x00000000#32),
    binary main_v11 main_cst main_v12 ((fun x v => Host.reduceAdd x v reducesTo_S32x512x2x1024_S32x512x1024_d2 h_S_) : (⟨S32x512x2x1024, .f32⟩ : BufTy).Contents (Elt F) → (⟨S_, .f32⟩ : BufTy).Contents (Elt F) → (⟨S32x512x1024, .f32⟩ : BufTy).Contents (Elt F)),
    nullary main_cst_1 (constant S_ .f32 0x40000000#32),
    unary main_cst_1 main_v13 (broadcastInDim S32x512x1024 ![] bcast_S_S32x512x1024 : (⟨S_, .f32⟩ : BufTy).Contents (Elt F) → (⟨S32x512x1024, .f32⟩ : BufTy).Contents (Elt F)),
    binary main_v12 main_v13 main_v14 (Host.divf : (⟨S32x512x1024, .f32⟩ : BufTy).Contents (Elt F) → (⟨S32x512x1024, .f32⟩ : BufTy).Contents (Elt F) → (⟨S32x512x1024, .f32⟩ : BufTy).Contents (Elt F)),
    unary main_arg1 main_v15 (broadcastInDim S32x1x1024 ![0, 2] bcast_S32x1024_S32x1x1024_0_2 : (⟨S32x1024, .f32⟩ : BufTy).Contents (Elt F) → (⟨S32x1x1024, .f32⟩ : BufTy).Contents (Elt F)),
    unary main_v15 main_v16 (broadcastInDim S32x512x1024 ![0, 1, 2] bcast_S32x1x1024_S32x512x1024_0_1_2 : (⟨S32x1x1024, .f32⟩ : BufTy).Contents (Elt F) → (⟨S32x512x1024, .f32⟩ : BufTy).Contents (Elt F)),
    binary main_v14 main_v16 main_v17 ((fun a b => concatenate S32x512x2048 2 [⟨S32x512x1024, a⟩, ⟨S32x512x1024, b⟩] concatenates_S32x512x1024_S32x512x1024_S32x512x2048_d2) : (⟨S32x512x1024, .f32⟩ : BufTy).Contents (Elt F) → (⟨S32x512x1024, .f32⟩ : BufTy).Contents (Elt F) → (⟨S32x512x2048, .f32⟩ : BufTy).Contents (Elt F)),
    reshape main_v17 main_v18 rfl shapeCasts_S32x512x2048_S16384x2048,
    binary main_v18 main_arg5 main_v19 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg6 main_v20 (broadcastInDim S1x1024 ![1] bcast_S1024_S1x1024_1 : (⟨S1024, .f32⟩ : BufTy).Contents (Elt F) → (⟨S1x1024, .f32⟩ : BufTy).Contents (Elt F)),
    unary main_v20 main_v21 (broadcastInDim S16384x1024 ![0, 1] bcast_S1x1024_S16384x1024_0_1 : (⟨S1x1024, .f32⟩ : BufTy).Contents (Elt F) → (⟨S16384x1024, .f32⟩ : BufTy).Contents (Elt F)),
    binary main_v19 main_v21 main_v22 (addf : (⟨S16384x1024, .f32⟩ : BufTy).Contents (Elt F) → (⟨S16384x1024, .f32⟩ : BufTy).Contents (Elt F) → (⟨S16384x1024, .f32⟩ : BufTy).Contents (Elt F)),
    TRef.nullary main_call1.cst (constant S_ .f32 0x00000000#32),
    TRef.unary main_call1.cst main_call1.v0 (broadcastInDim S16384x1024 ![] bcast_S_S16384x1024),
    TRef.binary (.of main_v22) main_call1.v0 main_call1.v1 maximumf,
    binary main_v23 main_arg7 main_v24 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    unary main_arg8 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S16384x1024 ![0, 1] bcast_S1x1024_S16384x1024_0_1 : (⟨S1x1024, .f32⟩ : BufTy).Contents (Elt F) → (⟨S16384x1024, .f32⟩ : BufTy).Contents (Elt F)),
    binary main_v24 main_v26 main_v27 (addf : (⟨S16384x1024, .f32⟩ : BufTy).Contents (Elt F) → (⟨S16384x1024, .f32⟩ : BufTy).Contents (Elt F) → (⟨S16384x1024, .f32⟩ : BufTy).Contents (Elt F)),
    TRef.nullary main_call2.cst (constant S_ .f32 0x00000000#32),
    TRef.unary main_call2.cst main_call2.v0 (broadcastInDim S16384x1024 ![] bcast_S_S16384x1024),
    TRef.binary (.of main_v27) main_call2.v0 main_call2.v1 maximumf ]

-- the program is a chain of thirty-nine sequenced steps; re-associating it recurses once per step
set_option maxRecDepth 2048 in
/-- The program is that straight line: the functions' bodies unfolded at their calls, both sides are one chain of
    steps once sequencing is re-associated. -/
theorem main_eq (c : Dev nD) : main (F := F) c = seq ops := by
  simp only [main, fn_cumsum.body, fn_cumsum_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    reshape_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub ..⟩

/-- Every weakly fair execution of the reference terminates, and every final state has each buffer at the fold of the
    operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«120839_j87162066305839_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LibHostDense.lean ====
/-
  A host dense layer with a rectifier, read at an entry, over the extended reals.

  `relu (x · w + b)` as a host program writes it: a `dot_general` with the plain dimension numbers, the bias vector
  made a `[1, N]` row and repeated down the `M` rows, an addition, and the maximum with a broadcast zero. At entry
  `(r, c)` it is `max (∑ k, x (r, k) · w (k, c) + b c) 0`.
-/
import proofs.«120839_j87162066305839_1_alg».proof.Proof.LibPlainDot
import proofs.«120839_j87162066305839_1_alg».proof.Proof.LibRowBroadcast
import Idealize.ShloMosaic.Lib.Pipeline.Value
import Idealize.ShloMosaic.PureOps.Ideal.Laws

noncomputable section

namespace Cert.LibHostDense

open Idealize.ShloMosaic Idealize.ShloMosaic.ValueIdx

/-- A rank-0 constant broadcast to any shape, read at any index, is the constant's value. -/
theorem scalar_bcast_apply {t : Shape} {α : Type} (x : (⟨0, ![]⟩ : Shape).Idx → α)
    (h : (⟨0, ![]⟩ : Shape).BroadcastsInDim t ![]) (j : t.Idx) :
    broadcastInDim t ![] h x j = x ix0 :=
  broadcastInDim_apply ![] h x j ix0 (fun a => a.elim0)

/-- `relu (x · w + b)` on the host at entry `(r, c)`. -/
theorem host_dense_apply {M K N : Nat} (hN : N ≠ 1) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral (F := Ideal) D none x w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 r c)
    = max ((∑ k : Fin K, x (ix2 r k) * w (ix2 k c)) + b (ix1 c)) 0 := by
  show max (FloatOps.dotGeneral D none .single x w (ix2 r c)
      + broadcastInDim ⟨2, ![M, N]⟩ ![0, 1] h2 (broadcastInDim ⟨2, ![1, N]⟩ ![1] h1 b) (ix2 r c))
    (broadcastInDim ⟨2, ![M, N]⟩ ![] h0 (constant (F := Ideal) ⟨0, ![]⟩ .f32 0x00000000#32) (ix2 r c)) = _
  rw [Cert.LibPlainDot.dotGeneral_plain_apply D hlc hrc hln hrn hlb hrb none .single x w r c,
    Cert.LibRowBroadcast.rows_bcast hN _ h2 r c, Cert.LibRowBroadcast.row_bcast b h1 c, scalar_bcast_apply]
  show max _ (Ideal.ofBits .f32 0x00000000#32) = _
  rw [Ideal.ofBits_zero_f32]

end Cert.LibHostDense

end
-- ==== Proof.RefValue.lean ====
/-
  What the reference computes, as one function of its arguments.

  Read in two stretches — up to the two halves of the pair features, and from their concatenation on — the
  reference's result is the two-layer network applied to every row of the pair features of its arguments: each layer
  is a `dot_general` with the plain dimension numbers, the bias repeated down the rows, and the maximum with zero.
-/
import proofs.«120839_j87162066305839_1_alg».proof.Proof.RefLine
import proofs.«120839_j87162066305839_1_alg».proof.Proof.PairFeatures
import proofs.«120839_j87162066305839_1_alg».proof.Proof.Mlp
import proofs.«120839_j87162066305839_1_alg».proof.Proof.LibHostDense
import proofs.«120839_j87162066305839_1_alg».proof.Proof.LibAfterAppend

noncomputable section

namespace Cert.ReferenceIdeal.Result

open Cert.ReferenceIdeal Cert.ReferenceIdeal.Gen Cert.ReferenceIdeal.Line Idealize.ShloMosaic Idealize.ShloMosaic.TcCoe Idealize.SL.Sem
open Idealize.ShloMosaic.StableHlo Idealize.ShloMosaic.ValueIdx Cert.PairMlp Cert.LibAfterAppend

/-- The operations up to the two halves of the pair features, -/
abbrev early : List (HloOp τ sig (Elt Ideal)) := (ops (F := Ideal)).take 23
/-- and the ones from their concatenation on. -/
abbrev late : List (HloOp τ sig (Elt Ideal)) := (ops (F := Ideal)).drop 23

/-! ## The first stretch -/

-- the calls' typed references carry casts along proofs of `T = T`; the heavy operations stay folded while those are compared away
attribute [local irreducible] Host.reduceWindow Host.gather Host.reduceAdd Host.divf concatenate shapeCast broadcastInDim in
theorem early_mean (W : Valuation τ sig (Elt Ideal)) :
    after early W (main_v14 : DevRef τ sig)
      = Cert.PairFeatures.pairMean (W (main_arg0 : DevRef τ sig)) (W (main_arg2 : DevRef τ sig)) (W (main_arg4 : DevRef τ sig)) := by
  simp only [early, ops, List.take_succ_cons, List.take_zero]
  after_results_simp
  rfl

attribute [local irreducible] broadcastInDim in
theorem early_context (W : Valuation τ sig (Elt Ideal)) :
    after early W (main_v16 : DevRef τ sig) = Cert.PairFeatures.pairContext (W (main_arg1 : DevRef τ sig)) := by
  simp only [early, ops, List.take_succ_cons, List.take_zero]
  after_results_simp
  rfl

theorem early_arg5 (W : Valuation τ sig (Elt Ideal)) : after early W (main_arg5 : DevRef τ sig) = W (main_arg5 : DevRef τ sig) := by
  simp only [early, ops, List.take_succ_cons, List.take_zero]
  after_results_simp

theorem early_arg6 (W : Valuation τ sig (Elt Ideal)) : after early W (main_arg6 : DevRef τ sig) = W (main_arg6 : DevRef τ sig) := by
  simp only [early, ops, List.take_succ_cons, List.take_zero]
  after_results_simp

theorem early_arg7 (W : Valuation τ sig (Elt Ideal)) : after early W (main_arg7 : DevRef τ sig) = W (main_arg7 : DevRef τ sig) := by
  simp only [early, ops, List.take_succ_cons, List.take_zero]
  after_results_simp

theorem early_arg8 (W : Valuation τ sig (Elt Ideal)) : after early W (main_arg8 : DevRef τ sig) = W (main_arg8 : DevRef τ sig) := by
  simp only [early, ops, List.take_succ_cons, List.take_zero]
  after_results_simp

/-! ## The second stretch -/

/-- The two layers as the reference writes them. -/
def layers (x : FVec Ideal S16384x2048 .f32) (w1 : FVec Ideal S2048x1024 .f32) (b1 : FVec Ideal S1024 .f32)
    (w2 : FVec Ideal S1024x1024 .f32) (b2 : FVec Ideal S1024 .f32) : FVec Ideal S16384x1024 .f32 :=
  maximumf (addf (Host.dotGeneral (F := Ideal) dot_S16384x1024_S1024x1024_S16384x1024_1_0_0_1_n_n none
      (maximumf (addf (Host.dotGeneral (F := Ideal) dot_S16384x2048_S2048x1024_S16384x1024_1_0_0_1_n_n none x w1)
          (broadcastInDim S16384x1024 ![0, 1] bcast_S1x1024_S16384x1024_0_1 (broadcastInDim S1x1024 ![1] bcast_S1024_S1x1024_1 b1)))
        (broadcastInDim S16384x1024 ![] bcast_S_S16384x1024 (constant (F := Ideal) S_ .f32 0x00000000#32))) w2)
      (broadcastInDim S16384x1024 ![0, 1] bcast_S1x1024_S16384x1024_0_1 (broadcastInDim S1x1024 ![1] bcast_S1024_S1x1024_1 b2)))
    (broadcastInDim S16384x1024 ![] bcast_S_S16384x1024 (constant (F := Ideal) S_ .f32 0x00000000#32))

attribute [local irreducible] Idealize.ShloMosaic.maximumf Idealize.ShloMosaic.addf concatenate shapeCast broadcastInDim in
theorem late_out (W : Valuation τ sig (Elt Ideal)) :
    after late W (main_v28 : DevRef τ sig)
      = layers (Cert.PairFeatures.assemble (W (main_v14 : DevRef τ sig)) (W (main_v16 : DevRef τ sig)))
          (W (main_arg5 : DevRef τ sig)) (W (main_arg6 : DevRef τ sig)) (W (main_arg7 : DevRef τ sig)) (W (main_arg8 : DevRef τ sig)) := by
  simp only [late, ops, List.drop_succ_cons, List.drop_zero]
  after_results_simp
  rfl

/-- The two layers are the network applied to every row. -/
theorem layers_eq (x : FVec Ideal S16384x2048 .f32) (w1 : FVec Ideal S2048x1024 .f32) (b1 : FVec Ideal S1024 .f32)
    (w2 : FVec Ideal S1024x1024 .f32) (b2 : FVec Ideal S1024 .f32) :
    layers x w1 b1 w2 b2 = mlp (M := 16384) x w1 (fun k => b1 (ix1 k)) w2 (fun k => b2 (ix1 k)) := by
  funext i
  obtain ⟨r, q, rfl⟩ : ∃ (r : Fin 16384) (q : Fin 1024), i = ix2 r q := ⟨i 0, i 1, eq_ix2 i⟩
  rw [mlp_apply]
  unfold layers
  refine (Cert.LibHostDense.host_dense_apply (M := 16384) (K := 1024) (N := 1024) (by decide)
    dot_S16384x1024_S1024x1024_S16384x1024_1_0_0_1_n_n rfl rfl rfl rfl rfl rfl _ w2 b2
    bcast_S1024_S1x1024_1 bcast_S1x1024_S16384x1024_0_1 bcast_S_S16384x1024 r q).trans ?_
  unfold mlpRow
  refine congrArg (fun s => max (s + b2 (ix1 q)) 0) (Finset.sum_congr rfl fun k _ => ?_)
  exact congrArg (· * w2 (ix2 k q)) (Cert.LibHostDense.host_dense_apply (M := 16384) (K := 2048) (N := 1024) (by decide)
    dot_S16384x2048_S2048x1024_S16384x1024_1_0_0_1_n_n rfl rfl rfl rfl rfl rfl x w1 b1
    bcast_S1024_S1x1024_1 bcast_S1x1024_S16384x1024_0_1 bcast_S_S16384x1024 r k)

/-! ## The whole line -/

/-- The result buffer after the whole line: the network applied to every row of the pair features. -/
theorem out_eq (W : Valuation τ sig (Elt Ideal)) :
    after (ops (F := Ideal)) W (main_v28 : DevRef τ sig)
      = mlp (M := 16384)
          (Cert.PairFeatures.feats (W (main_arg0 : DevRef τ sig)) (W (main_arg1 : DevRef τ sig)) (W (main_arg2 : DevRef τ sig))
            (W (main_arg4 : DevRef τ sig)))
          (W (main_arg5 : DevRef τ sig)) (fun k => (W (main_arg6 : DevRef τ sig) : S1024.Idx → EReal) (ix1 k))
          (W (main_arg7 : DevRef τ sig)) (fun k => (W (main_arg8 : DevRef τ sig) : S1024.Idx → EReal) (ix1 k)) := by
  rw [after_take_drop 23 ops W]
  show after late (after early W) (main_v28 : DevRef τ sig) = _
  rw [late_out, early_mean, early_context, early_arg5, early_arg6, early_arg7, early_arg8, layers_eq]
  rfl

/-! ## No operation writes an argument -/

theorem kept0 (W : Valuation τ sig (Elt Ideal)) :
    after (ops (F := Ideal)) W (main_arg0 : DevRef τ sig) = W (main_arg0 : DevRef τ sig) := by
  after_results_simp

theorem kept1 (W : Valuation τ sig (Elt Ideal)) :
    after (ops (F := Ideal)) W (main_arg1 : DevRef τ sig) = W (main_arg1 : DevRef τ sig) := by
  after_results_simp

theorem kept2 (W : Valuation τ sig (Elt Ideal)) :
    after (ops (F := Ideal)) W (main_arg2 : DevRef τ sig) = W (main_arg2 : DevRef τ sig) := by
  after_results_simp

theorem kept3 (W : Valuation τ sig (Elt Ideal)) :
    after (ops (F := Ideal)) W (main_arg3 : DevRef τ sig) = W (main_arg3 : DevRef τ sig) := by
  after_results_simp

theorem kept4 (W : Valuation τ sig (Elt Ideal)) :
    after (ops (F := Ideal)) W (main_arg4 : DevRef τ sig) = W (main_arg4 : DevRef τ sig) := by
  after_results_simp

theorem kept5 (W : Valuation τ sig (Elt Ideal)) :
    after (ops (F := Ideal)) W (main_arg5 : DevRef τ sig) = W (main_arg5 : DevRef τ sig) := by
  after_results_simp

theorem kept6 (W : Valuation τ sig (Elt Ideal)) :
    after (ops (F := Ideal)) W (main_arg6 : DevRef τ sig) = W (main_arg6 : DevRef τ sig) := by
  after_results_simp

theorem kept7 (W : Valuation τ sig (Elt Ideal)) :
    after (ops (F := Ideal)) W (main_arg7 : DevRef τ sig) = W (main_arg7 : DevRef τ sig) := by
  after_results_simp

theorem kept8 (W : Valuation τ sig (Elt Ideal)) :
    after (ops (F := Ideal)) W (main_arg8 : DevRef τ sig) = W (main_arg8 : DevRef τ sig) := by
  after_results_simp

/-! ## The run -/

variable (m : (ℓ : Loc nD τ sig) → Buf (Elt Ideal) ℓ) (ρ : Dev nD → PrngReg)

/-- The network applied to every row of the pair features of the arguments. -/
def value (c : Dev nD) : S16384x1024.Idx → EReal :=
  mlp (M := 16384)
    (Cert.PairFeatures.feats (m ((c.tc : Thread nD τ).loc main_arg0)) (m ((c.tc : Thread nD τ).loc main_arg1))
      (m ((c.tc : Thread nD τ).loc main_arg2)) (m ((c.tc : Thread nD τ).loc main_arg4)))
    (m ((c.tc : Thread nD τ).loc main_arg5)) (fun k => (m ((c.tc : Thread nD τ).loc main_arg6) : S1024.Idx → EReal) (ix1 k))
    (m ((c.tc : Thread nD τ).loc main_arg7)) (fun k => (m ((c.tc : Thread nD τ).loc main_arg8) : S1024.Idx → EReal) (ix1 k))

/-- Every weakly fair execution of the reference terminates with its result at that function of the arguments and the
    arguments unchanged. -/
theorem run : θ_run defs (onTc (τ := τ) (main (F := Ideal))) ⟨m, fun _ => 0, ρ⟩ fun r => ∀ c : Dev nD,
      r.2.mem ((c.tc : Thread nD τ).loc main_v28) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v28).trans (out_eq (launchContents m c)),
      (h c main_arg0).trans (kept0 _), (h c main_arg1).trans (kept1 _), (h c main_arg2).trans (kept2 _),
      (h c main_arg3).trans (kept3 _), (h c main_arg4).trans (kept4 _), (h c main_arg5).trans (kept5 _),
      (h c main_arg6).trans (kept6 _), (h c main_arg7).trans (kept7 _), (h c main_arg8).trans (kept8 _)⟩)
    (run_line m ρ)

end Cert.ReferenceIdeal.Result

end
-- ==== Proof.lean ====
/-
  A fused two-layer perceptron over gathered pair features, against its plain reference, over the extended reals.

  Both programs first build the pair features `x : [16384, 2048]` — for each of 32 images and 512 object pairs, the
  mean of the two objects' feature rows (found through the images' running object counts) followed by the image's
  context vector — with the same host operations. The reference then computes `relu (relu (x · W1 + b1) · W2 + b2)`
  with two whole matrix products. The kernel computes the same for 512 rows at a time, on a grid of 32 points, after
  changing the format of `x`, `W1`, `W2` and of the hidden layer, which over the extended reals is the identity.

  The network is a function of one row of `x`: entry `(r, q)` of the result is
  `max (∑ k, max (∑ j, x (r, j) · W1 (j, k) + b1 k) 0 · W2 (k, q) + b2 q) 0`. Each product into a zero accumulator,
  on the device as on the host, is the plain sum over the contracted index, so a tile of the kernel's output is the
  block of that one array, the 32 blocks cover it, and the two results are the same function of the arguments, index
  by index; no law of arithmetic beyond that is used, and finiteness of the inputs is not needed.
-/
import proofs.«120839_j87162066305839_1_alg».proof.Defs
import proofs.«120839_j87162066305839_1_alg».proof.Proof.Gen.Kernel
import proofs.«120839_j87162066305839_1_alg».proof.Proof.Gen.Kernel.Skeleton
import proofs.«120839_j87162066305839_1_alg».proof.Proof.Gen.Kernel.Launch
import proofs.«120839_j87162066305839_1_alg».proof.Proof.Gen.Kernel.Points
import proofs.«120839_j87162066305839_1_alg».proof.Proof.Gen.Kernel.Frame
import proofs.«120839_j87162066305839_1_alg».proof.Proof.Gen.KernelIdeal
import proofs.«120839_j87162066305839_1_alg».proof.Proof.Gen.KernelIdeal.Skeleton
import proofs.«120839_j87162066305839_1_alg».proof.Proof.Gen.KernelIdeal.Launch
import proofs.«120839_j87162066305839_1_alg».proof.Proof.Gen.KernelIdeal.Points
import proofs.«120839_j87162066305839_1_alg».proof.Proof.Gen.KernelIdeal.Frame
import proofs.«120839_j87162066305839_1_alg».proof.Proof.Gen.KernelIdeal.Value
import proofs.«120839_j87162066305839_1_alg».proof.Proof.Gen.ReferenceIdeal
import proofs.«120839_j87162066305839_1_alg».proof.Proof.Gen.Pre_finite_inputs
import proofs.«120839_j87162066305839_1_alg».proof.Proof.KernelValue
import proofs.«120839_j87162066305839_1_alg».proof.Proof.RefValue
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Result.run m ρ)

/-- Nothing of the kernel's text was rewritten for its reading over the extended reals. -/
theorem preserves : Cert.preserves_Kernel_KernelIdeal := trivial

/-- From arguments that agree, both programs end with the first argument and with the network applied to every row of
    the pair features of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Result.value m c, ?_, ?_⟩
  · exact (θ_run Cert.KernelIdeal.defs _ _).mono (fun _ h c => ⟨(h c).2.1, (h c).1, (h c).2⟩)
      (Cert.KernelIdeal.Result.run m ρ)
  · refine (θ_run Cert.ReferenceIdeal.defs _ _).mono
      (fun _ h c => ⟨(h c).2.1.trans (hagree c).1, (h c).1.trans ?_, (h c).2⟩) (Cert.ReferenceIdeal.Result.run m' ρ')
    obtain ⟨h0, h1, h2, -, h4, h5, h6, h7, h8⟩ := hagree c
    unfold Cert.ReferenceIdeal.Result.value Cert.KernelIdeal.Result.value
    rw [h0, h1, h2, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
